-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000 : Shape := ⟨1, ![1000000]⟩
abbrev S2x200000 : Shape := ⟨2, ![2, 200000]⟩
abbrev S128x64 : Shape := ⟨2, ![128, 64]⟩
abbrev S64x64 : Shape := ⟨2, ![64, 64]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg6 : FVec F S2x128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  main_v23

def fn {F : FTy → Type} [FloatOps F] (main_arg0 : FVec F S100000x128 .f32) (main_arg1 : IVec S2x1000000 32) (main_arg2 : FVec F S1000000 .f32) (main_arg3 : IVec S2x200000 32) (main_arg4 : FVec F S128x64 .f32) (main_arg5 : FVec F S64x64 .f32) (main_arg6 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x128 : Shape := ⟨2, ![100000, 128]⟩
abbrev S2x1000000 : Shape := ⟨2, ![2, 1000000]⟩
abbrev S1000000 : Shape := ⟨1, ![1000000]⟩
abbrev S2x200000 : Shape := ⟨2, ![2, 200000]⟩
abbrev S128x64 : Shape := ⟨2, ![128, 64]⟩
abbrev S64x64 : Shape := ⟨2, ![64, 64]⟩
abbrev S2x128 : Shape := ⟨2, ![2, 128]⟩
abbrev S100000x64 : Shape := ⟨2, ![100000, 64]⟩
abbrev S10000x128 : Shape := ⟨2, ![10000, 128]⟩
abbrev S10000x64 : Shape := ⟨2, ![10000, 64]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S2x64 : Shape := ⟨2, ![2, 64]⟩
abbrev S64x2 : Shape := ⟨2, ![64, 2]⟩
abbrev S200000x2 : Shape := ⟨2, ![200000, 2]⟩
abbrev S10000x2 : Shape := ⟨2, ![10000, 2]⟩

abbrev nBuf : Space → Nat
  | .hbm => 72
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000, .f32⟩
  | .hbm, ⟨3, _⟩ => ⟨S2x200000, .i32⟩
  | .hbm, ⟨4, _⟩ => ⟨S128x64, .f32⟩
  | .hbm, ⟨5, _⟩ => ⟨S64x64, .f32⟩
  | .hbm, ⟨6, _⟩ => ⟨S2x128, .f32⟩
  | .hbm, ⟨7, _⟩ => ⟨S100000x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S1000000x1, .f32⟩
  | .hbm, ⟨22, _⟩ => ⟨S1000000x64, .f32⟩
  | .hbm, ⟨23, _⟩ => ⟨S1000000x64, .f32⟩
  | .hbm, ⟨24, _⟩ => ⟨S_, .f32⟩
  | .hbm, ⟨25, _⟩ => ⟨S100000x64, .f32⟩
  | .hbm, ⟨26, _⟩ => ⟨S1000000x1, .i32⟩
  | .hbm, ⟨27, _⟩ => ⟨S100000x64, .f32⟩
  | .hbm, ⟨28, _⟩ => ⟨S100000x64, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x64, .f32⟩
  | .hbm, ⟨38, _⟩ => ⟨S1000000x1, .f32⟩
  | .hbm, ⟨39, _⟩ => ⟨S1000000x64, .f32⟩
  | .hbm, ⟨40, _⟩ => ⟨S1000000x64, .f32⟩
  | .hbm, ⟨41, _⟩ => ⟨S_, .f32⟩
  | .hbm, ⟨42, _⟩ => ⟨S100000x64, .f32⟩
  | .hbm, ⟨43, _⟩ => ⟨S1000000x1, .i32⟩
  | .hbm, ⟨44, _⟩ => ⟨S100000x64, .f32⟩
  | .hbm, ⟨45, _⟩ => ⟨S1x200000, .i32⟩
  | .hbm, ⟨46, _⟩ => ⟨S200000, .i32⟩
  | .hbm, ⟨47, _⟩ => ⟨S_, .i32⟩
  | .hbm, ⟨48, _⟩ => ⟨S200000, .i32⟩
  | .hbm, ⟨49, _⟩ => ⟨S200000, .i1⟩
  | .hbm, ⟨50, _⟩ => ⟨S_, .i32⟩
  | .hbm, ⟨51, _⟩ => ⟨S200000, .i32⟩
  | .hbm, ⟨52, _⟩ => ⟨S200000, .i32⟩
  | .hbm, ⟨53, _⟩ => ⟨S200000, .i32⟩
  | .hbm, ⟨54, _⟩ => ⟨S200000x1, .i32⟩
  | .hbm, ⟨55, _⟩ => ⟨S200000x64, .f32⟩
  | .hbm, ⟨56, _⟩ => ⟨S1x200000, .i32⟩
  | .hbm, ⟨57, _⟩ => ⟨S200000, .i32⟩
  | .hbm, ⟨58, _⟩ => ⟨S_, .i32⟩
  | .hbm, ⟨59, _⟩ => ⟨S200000, .i32⟩
  | .hbm, ⟨60, _⟩ => ⟨S200000, .i1⟩
  | .hbm, ⟨61, _⟩ => ⟨S_, .i32⟩
  | .hbm, ⟨62, _⟩ => ⟨S200000, .i32⟩
  | .hbm, ⟨63, _⟩ => ⟨S200000, .i32⟩
  | .hbm, ⟨64, _⟩ => ⟨S200000, .i32⟩
  | .hbm, ⟨65, _⟩ => ⟨S200000x1, .i32⟩
  | .hbm, ⟨66, _⟩ => ⟨S200000x64, .f32⟩
  | .hbm, ⟨67, _⟩ => ⟨S2x64, .f32⟩
  | .hbm, ⟨68, _⟩ => ⟨S64x2, .f32⟩
  | .hbm, ⟨69, _⟩ => ⟨S2x64, .f32⟩
  | .hbm, ⟨70, _⟩ => ⟨S64x2, .f32⟩
  | .hbm, ⟨71, _⟩ => ⟨S200000x2, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x2, .f32⟩
  | .local _ .vmem, ⟨15, _⟩ => ⟨S64x2, .f32⟩
  | .local _ .vmem, ⟨16, _⟩ => ⟨S10000x2, .f32⟩
  | .local _ .vmem, ⟨17, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_6 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  slices_S2x128_S2x64_0_0 : S2x128.Slices ![0, 0] S2x64
  transposes_S2x64_S64x2_1_0 : S2x64.Transposes [1, 0] S64x2
  slices_S2x128_S2x64_0_64 : S2x128.Slices ![0, 64] S2x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S10000x2_S10000x2_0_0 : ∀ a, (![0, 0] : Fin 2 → Nat) a + S10000x2.size a ≤ S10000x2.size a
  h_S10000x2 : 0 < S10000x2.numel
  dot_S10000x128_S128x64_S10000x64_1_0_0_1_n_n_wf : DotDims.WF S10000x128 S128x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  gather_S100000x64_S200000x1_S200000x64_1_0_n_n_0_1_164_wf : GatherDims.WF S100000x64 S200000x1 S200000x64 [1] [0] [] [0] [] 1 ![1, 64]
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S200000x64.size a
  hwx2_1 : ∀ i : grid2.Coords, EltTy.bits .f32 = 32 ∨ (Rect.block (s := S200000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x2.size a ≤ S200000x2.size a
  hwx2_4 : ∀ i : grid2.Coords, EltTy.bits .f32 = 32 ∨ (Rect.block (s := S200000x2) S10000x2.size (cc2_transform_4 i) (hinb2_4 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S10000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000 : Shape := ⟨1, ![1000000]⟩
abbrev S2x200000 : Shape := ⟨2, ![2, 200000]⟩
abbrev S128x64 : Shape := ⟨2, ![128, 64]⟩
abbrev S64x64 : Shape := ⟨2, ![64, 64]⟩
abbrev S2x128 : Shape := ⟨2, ![2, 128]⟩
abbrev S100000x64 : Shape := ⟨2, ![100000, 64]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x128 : Shape := ⟨2, ![200000, 128]⟩
abbrev S128x2 : Shape := ⟨2, ![128, 2]⟩
abbrev S200000x2 : Shape := ⟨2, ![200000, 2]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000, .f32⟩
  | .hbm, ⟨3, _⟩ => ⟨S2x200000, .i32⟩
  | .hbm, ⟨4, _⟩ => ⟨S128x64, .f32⟩
  | .hbm, ⟨5, _⟩ => ⟨S64x64, .f32⟩
  | .hbm, ⟨6, _⟩ => ⟨S2x128, .f32⟩
  | .hbm, ⟨7, _⟩ => ⟨S100000x64, .f32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S1000000x1, .f32⟩
  | .hbm, ⟨20, _⟩ => ⟨S1000000x64, .f32⟩
  | .hbm, ⟨21, _⟩ => ⟨S1000000x64, .f32⟩
  | .hbm, ⟨22, _⟩ => ⟨S1x1000000, .i32⟩
  | .hbm, ⟨23, _⟩ => ⟨S1000000, .i32⟩
  | .hbm, ⟨24, _⟩ => ⟨S_, .f32⟩
  | .hbm, ⟨25, _⟩ => ⟨S100000x64, .f32⟩
  | .hbm, ⟨26, _⟩ => ⟨S1000000x1, .i32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x1000000, .i32⟩
  | .hbm, ⟨33, _⟩ => ⟨S1000000, .i32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x64, .f32⟩
  | .hbm, ⟨43, _⟩ => ⟨S1000000x1, .f32⟩
  | .hbm, ⟨44, _⟩ => ⟨S1000000x64, .f32⟩
  | .hbm, ⟨45, _⟩ => ⟨S1000000x64, .f32⟩
  | .hbm, ⟨46, _⟩ => ⟨S1x1000000, .i32⟩
  | .hbm, ⟨47, _⟩ => ⟨S1000000, .i32⟩
  | .hbm, ⟨48, _⟩ => ⟨S_, .f32⟩
  | .hbm, ⟨49, _⟩ => ⟨S100000x64, .f32⟩
  | .hbm, ⟨50, _⟩ => ⟨S1000000x1, .i32⟩
  | .hbm, ⟨51, _⟩ => ⟨S100000x64, .f32⟩
  | .hbm, ⟨52, _⟩ => ⟨S1x200000, .i32⟩
  | .hbm, ⟨53, _⟩ => ⟨S200000, .i32⟩
  | .hbm, ⟨54, _⟩ => ⟨S_, .i32⟩
  | .hbm, ⟨55, _⟩ => ⟨S200000, .i32⟩
  | .hbm, ⟨56, _⟩ => ⟨S200000, .i1⟩
  | .hbm, ⟨57, _⟩ => ⟨S_, .i32⟩
  | .hbm, ⟨58, _⟩ => ⟨S200000, .i32⟩
  | .hbm, ⟨59, _⟩ => ⟨S200000, .i32⟩
  | .hbm, ⟨60, _⟩ => ⟨S200000, .i32⟩
  | .hbm, ⟨61, _⟩ => ⟨S200000x1, .i32⟩
  | .hbm, ⟨62, _⟩ => ⟨S200000x64, .f32⟩
  | .hbm, ⟨63, _⟩ => ⟨S1x200000, .i32⟩
  | .hbm, ⟨64, _⟩ => ⟨S200000, .i32⟩
  | .hbm, ⟨65, _⟩ => ⟨S_, .i32⟩
  | .hbm, ⟨66, _⟩ => ⟨S200000, .i32⟩
  | .hbm, ⟨67, _⟩ => ⟨S200000, .i1⟩
  | .hbm, ⟨68, _⟩ => ⟨S_, .i32⟩
  | .hbm, ⟨69, _⟩ => ⟨S200000, .i32⟩
  | .hbm, ⟨70, _⟩ => ⟨S200000, .i32⟩
  | .hbm, ⟨71, _⟩ => ⟨S200000, .i32⟩
  | .hbm, ⟨72, _⟩ => ⟨S200000x1, .i32⟩
  | .hbm, ⟨73, _⟩ => ⟨S200000x64, .f32⟩
  | .hbm, ⟨74, _⟩ => ⟨S200000x128, .f32⟩
  | .hbm, ⟨75, _⟩ => ⟨S128x2, .f32⟩
  | .hbm, ⟨76, _⟩ => ⟨S200000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_c_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_6 : Ref sig .tc := ⟨.hbm, 65, rfl⟩
abbrev main_v48 : Ref sig .tc := ⟨.hbm, 66, rfl⟩
abbrev main_v49 : Ref sig .tc := ⟨.hbm, 67, rfl⟩
abbrev main_c_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  slices_S2x1000000_S1x1000000_1_0 : S2x1000000.Slices ![1, 0] S1x1000000
  bcast_S_S100000x64 : S_.BroadcastsInDim S100000x64 (![] : Fin 0 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x64_S200000x64_S200000x128_d1 : Shape.Concatenates [S200000x64, S200000x64] S200000x128 1
  transposes_S2x128_S128x2_1_0 : S2x128.Transposes [1, 0] S128x2
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]
  dot_S200000x128_S128x2_S200000x2_1_0_0_1_n_n_wf : DotDims.WF S200000x128 S128x2 S200000x2 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x128_S128x2_S200000x2_1_0_0_1_n_n : DotDims S200000x128 S128x2 S200000x2 where
  lhsContracting := [1]
  rhsContracting := [0]
  lhsNonContracting := [0]
  rhsNonContracting := [1]
  lhsBatch := []
  rhsBatch := []
  wf := dot_S200000x128_S128x2_S200000x2_1_0_0_1_n_n_wf

class Facts : Prop extends Facts₀ where

variable [Facts]
-- ==== Proof.KernelRun.lean ====
/-
  The idealized kernel's run with every buffer named at the end.

  The program is three pallas_calls among two stretches of host operations. Its run is a fold of buffer contents from
  the launch memory: each call leaves its result array at what its write-backs deposit and every other buffer as it
  found it, each host stretch applies its operations in order. The last boundary's contents are `W5`; every weakly
  fair execution ends with each buffer that outlives the calls — the result and the arguments among them — at
  `W5`'s value for it. This is the same launch over the same segments as the frame claim's, read at all buffers
  instead of at the arguments only.
-/
import proofs.«132223_j86234353369871_1_alg».proof.Proof.Gen.KernelIdeal.Frame

set_option maxRecDepth 16384

noncomputable section

namespace Cert.KernelIdeal.Link

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run read at the result and the arguments: the result array at the last boundary's contents, the arguments as
    launched. -/
theorem run_result : θ_run defs (onTc (τ := τ) (main (F := F))) ⟨m, fun _ => 0, ρ⟩ (fun r => ∀ c : Dev nD,
      r.2.mem ((c.tc : Thread nD τ).loc main_v54) = W5 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨h c _ (mem_uc main_v54 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)
    (run_all m ρ)

end Cert.KernelIdeal.Link

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LinkSpec.lean ====
/-
  The link decoder's three dense stages, as functions of whole arrays on the extended reals.

  A graph-convolution layer is a dense transform followed by an edge-weighted aggregation; the decoder scores an edge
  from the features of its two endpoints laid side by side. The dense parts are three plain matrix products:
  `rowsDot x w` is the product of an n × K matrix with a K × M matrix, entry (p, c) being `∑ k, x (p, k) · w (k, c)`;
  `reluRowsDot` rectifies the left factor first; `pairDot z₀ z₁ wa wb` adds the products of two left factors
  with their own right factors. The one law needed is that a product against K₁ + K₂ rows splits into the
  product against the first K₁ rows plus the product against the last K₂: a finite sum cut in two, which on the
  extended reals needs nothing but that addition is commutative and associative (no finiteness).
-/
import Idealize.ShloMosaic.Lib.ValueIdx
import Idealize.ShloMosaic.PureOps.Ideal

noncomputable section

open scoped BigOperators

namespace Cert.Link

open Idealize.ShloMosaic Idealize.ShloMosaic.ValueIdx

/-- The zero offset of a rank-2 rectangle, as a function. -/
theorem zero_off : (![0, 0] : Fin 2 → Nat) = fun _ => 0 := funext fun a => by fin_cases a <;> rfl

/-- The product of an n × K matrix with a K × M matrix: entry (p, c) is `∑ k, x (p, k) · w (k, c)`. -/
def rowsDot {n K M : Nat} (x : (⟨2, ![n, K]⟩ : Shape).Idx → EReal) (w : (⟨2, ![K, M]⟩ : Shape).Idx → EReal) :
    (⟨2, ![n, M]⟩ : Shape).Idx → EReal :=
  fun i => ∑ k : Fin K, x (ix2 (⟨(i 0).val, idx2_lt0 i⟩ : Fin n) k) * w (ix2 k (⟨(i 1).val, idx2_lt1 i⟩ : Fin M))

theorem rowsDot_apply {n K M : Nat} (x : (⟨2, ![n, K]⟩ : Shape).Idx → EReal) (w : (⟨2, ![K, M]⟩ : Shape).Idx → EReal)
    (p : Fin n) (c : Fin M) : rowsDot x w (ix2 p c) = ∑ k : Fin K, x (ix2 p k) * w (ix2 k c) := rfl

/-- An array with its negative entries replaced by zero. -/
def relu {s : Shape} (x : s.Idx → EReal) : s.Idx → EReal := fun j => max (x j) 0

/-- The product with the left factor rectified first. -/
def reluRowsDot {n K M : Nat} (x : (⟨2, ![n, K]⟩ : Shape).Idx → EReal) (w : (⟨2, ![K, M]⟩ : Shape).Idx → EReal) :
    (⟨2, ![n, M]⟩ : Shape).Idx → EReal := rowsDot (relu x) w

/-- Two products added entry by entry: `z₀ · wa + z₁ · wb`. -/
def pairDot {n K M : Nat} (z0 z1 : (⟨2, ![n, K]⟩ : Shape).Idx → EReal) (wa wb : (⟨2, ![K, M]⟩ : Shape).Idx → EReal) :
    (⟨2, ![n, M]⟩ : Shape).Idx → EReal := fun i => rowsDot z0 wa i + rowsDot z1 wb i

theorem pairDot_apply {n K M : Nat} (z0 z1 : (⟨2, ![n, K]⟩ : Shape).Idx → EReal) (wa wb : (⟨2, ![K, M]⟩ : Shape).Idx → EReal)
    (p : Fin n) (c : Fin M) :
    pairDot z0 z1 wa wb (ix2 p c) = (∑ k : Fin K, z0 (ix2 p k) * wa (ix2 k c)) + ∑ k : Fin K, z1 (ix2 p k) * wb (ix2 k c) := rfl

/-- A sum over K₁ + K₂ positions is the sum over the first K₁ plus the sum over the last K₂. -/
theorem sum_cut {K1 K2 : Nat} (f : Fin (K1 + K2) → EReal) :
    ∑ k : Fin (K1 + K2), f k
      = (∑ k : Fin K1, f ⟨k.val, by have := k.isLt; omega⟩) + ∑ k : Fin K2, f ⟨k.val + K1, by have := k.isLt; omega⟩ := by
  rw [Fin.sum_univ_add]
  refine congrArg₂ (· + ·) (Finset.sum_congr rfl fun k _ => congrArg f (Fin.ext rfl))
    (Finset.sum_congr rfl fun k _ => congrArg f (Fin.ext (by simp [Fin.natAdd, Nat.add_comm])))

end Cert.Link

end
-- ==== Proof.Region0.lean ====
/-
  The first dense transform, `x · W1`, as the first pallas_call leaves it in its result array.

  The call walks ten row blocks of 10000 rows. At block `t` it multiplies rows `10000 t … 10000 t + 9999` of the
  feature matrix with the whole 128 × 64 weight matrix (both rounded to bf16 on the way in, which is the identity on
  the extended reals) into a zero accumulator and writes the 10000 × 64 product back as block `t` of the result.
  Entry (p, c) of that block is `∑ k, x (10000 t + p, k) · W1 (k, c)`: block `t` of the one whole-array function
  `rowsDot x W1`. The ten blocks tile the result's 100000 rows, so the array ends holding `rowsDot x W1`.
-/
import proofs.«132223_j86234353369871_1_alg».proof.Proof.Gen.KernelIdeal.Frame
import proofs.«132223_j86234353369871_1_alg».proof.Proof.LibPlainDot
import proofs.«132223_j86234353369871_1_alg».proof.Proof.LinkSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Link

open Cert.KernelIdeal Cert.KernelIdeal.Gen Cert.Link

variable (V : (c : Dev nD) → (b : Ref sig .tc) → Buf (Elt Ideal) ((c : Thread nD τ).loc b))

/-! ## The body's product at an entry -/

theorem dot0_l0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dot0_r1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (p, q) of the body's product: the row of the feature block against the column of the weights. -/
theorem pay0_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact Cert.PlainDot.matmul_zero_apply dot_S10000x128_S128x64_S10000x64_1_0_0_1_n_n rfl rfl dot0_l0
    (fun i q => dot_S10000x128_S128x64_S10000x64_1_0_0_1_n_n.lhsIdx_val_of_single rfl i q)
    (fun i q => dot_S10000x128_S128x64_S10000x64_1_0_0_1_n_n.rhsIdx_val_of_single rfl i q) dot0_r1 none
    (truncf .bf16 x0 bitsLt_bf16_f32) (truncf .bf16 x1 bitsLt_bf16_f32) p q

/-- One written-back entry, over plain variables: if the feature block holds rows `10000 s + p` of `A` and the
    weight block is `W`, the body's product at `y` is `rowsDot A W` at row `10000 s + y₀`, column `y₁`. -/
theorem point0 (A : S100000x128.Idx → EReal) (W : S128x64.Idx → EReal) (x0 : Vec Ideal S10000x128 .f32) (x1 : Vec Ideal S128x64 .f32)
    (s : Nat) (hs : s < 10)
    (h0 : ∀ (p : Fin 10000) (k : Fin 128), x0 (ix2 p k) = A (ix2 (⟨s * 10000 + p.val, by have := p.isLt; omega⟩ : Fin 100000) k))
    (h1 : ∀ (k : Fin 128) (q : Fin 64), x1 (ix2 k q) = W (ix2 k q))
    (y : S10000x64.Idx) (i : S100000x64.Idx) (hi0 : (i 0).val = s * 10000 + (y 0).val) (hi1 : (i 1).val = (y 1).val) :
    k0_pay1 x0 x1 y = rowsDot A W i := by
  obtain ⟨p, q, rfl⟩ : ∃ (p : Fin 10000) (q : Fin 64), y = ix2 p q := ⟨y 0, y 1, eq_ix2 y⟩
  rw [pay0_apply]
  unfold rowsDot
  refine Finset.sum_congr rfl fun k _ => ?_
  rw [h0, h1]
  refine congrArg₂ (· * ·) (congrArg A ?_) (congrArg W ?_)
  · exact congrArg (fun a => ix2 a k) (Fin.ext hi0.symm)
  · exact congrArg (fun a => ix2 k a) (Fin.ext hi1.symm)

/-! ## The blocks of the two operands and of the result -/

/-- The printed index maps over the ten points: the feature and result windows move one block of rows per point,
    the weight window stays on the whole matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `10000 t … 10000 t + 9999` of the feature matrix. -/
theorem feat0_apply (c : Dev nD) (t : Fin cfg0.N) (p : Fin 10000) (k : Fin 128) (i : S100000x128.Idx)
    (hi0 : (i 0).val = t.val * 10000 + p.val) (hi1 : (i 1).val = k.val) :
    (iblk0 V c 0 t : Vec Ideal S10000x128 .f32) (ix2 p k) = (V c main_arg0 : S100000x128.Idx → EReal) i := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t 0 * 10000 + 1 * p.val = (i 0).val; rw [e0, hi0]; omega
  | ⟨1, _⟩ => show win0_0.index t 1 * 128 + 1 * k.val = (i 1).val; rw [e1, hi1]; omega

/-- The weight window's block at every point is the whole weight matrix. -/
theorem wt0_apply (c : Dev nD) (t : Fin cfg0.N) (k : Fin 128) (q : Fin 64) :
    (iblk0 V c 1 t : Vec Ideal S128x64 .f32) (ix2 k q) = (V c main_arg4 : S128x64.Idx → EReal) (ix2 k q) := by
  obtain ⟨-, -, e2, e3, -⟩ := idx0 t
  unfold iblk0
  rw [View.read_apply]
  show V c main_arg4 _ = V c main_arg4 _
  refine congrArg (V c main_arg4) ?_
  funext a
  apply Fin.ext
  match a with
  | ⟨0, _⟩ => show win0_1.index t 0 * 128 + 1 * k.val = k.val; rw [e2]; omega
  | ⟨1, _⟩ => show win0_1.index t 1 * 64 + 1 * q.val = q.val; rw [e3]; omega

/-- The first dense transform of the arrays the call finds. -/
abbrev xw1 (c : Dev nD) : S100000x64.Idx → EReal :=
  rowsDot (n := 100000) (K := 128) (M := 64) (V c main_arg0) (V c main_arg4)

/-- What point `t` writes back is block `t` of `rowsDot x W1`. -/
theorem flushed0_eq (c : Dev nD) (t : Fin cfg0.N) :
    (dat0 V c).flushed 2 t = ((cfg0.win 2).blk t).view.read (Elt Ideal) (xw1 V c) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x64) zero_off]
  have hN : cfg0.N = 10 := N_0
  obtain ⟨-, -, -, -, e4, e5⟩ := idx0 t
  funext y
  rw [View.read_apply]
  refine point0 (V c main_arg0) (V c main_arg4) _ _ t.val (by have := t.isLt; omega)
    (fun p k => feat0_apply V c t p k _ rfl rfl) (fun k q => wt0_apply V c t k q) y _ ?_ ?_
  · show win0_2.index t 0 * 10000 + 1 * (y 0).val = t.val * 10000 + (y 0).val; rw [e4]; omega
  · show win0_2.index t 1 * 64 + 1 * (y 1).val = (y 1).val; rw [e5]; omega

/-- An index of the result is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row `r` of the result lies in the block of point `r / 10000`: the ten blocks tile the array. -/
theorem cover0 (i : S100000x64.Idx) : ∃ t : Fin cfg0.N, (cfg0.win 2).flush t = true ∧ i ∈ ((cfg0.win 2).blk t).view.set := by
  have hN : cfg0.N = 10 := N_0
  have h0 : (i 0).val < 100000 := (i 0).isLt
  have h1 : (i 1).val < 64 := (i 1).isLt
  let t : Fin cfg0.N := ⟨(i 0).val / 10000, by omega⟩
  obtain ⟨-, -, -, -, e4, e5⟩ := idx0 t
  refine ⟨t, flush0_2 t, ?_⟩
  rw [mem_blk0]
  intro a
  match a with
  | ⟨0, _⟩ => show win0_2.index t 0 * 10000 ≤ (i 0).val ∧ (i 0).val < win0_2.index t 0 * 10000 + 10000
              rw [e4]; show (i 0).val / 10000 * 10000 ≤ (i 0).val ∧ (i 0).val < (i 0).val / 10000 * 10000 + 10000; omega
  | ⟨1, _⟩ => show win0_2.index t 1 * 64 ≤ (i 1).val ∧ (i 1).val < win0_2.index t 1 * 64 + 64
              rw [e5]; omega

/-- After the call its result array holds `rowsDot x W1` of the feature and weight arrays it found. -/
theorem array0 (c : Dev nD) : (dat0 V c).arrAt 2 cfg0.N = xw1 V c :=
  (dat0 V c).arrAt_eq_of_cover 2 (xw1 V c) (fun t _ => flushed0_eq V c t) cover0

end Cert.KernelIdeal.Link

end
-- ==== Proof.Region1.lean ====
/-
  The second dense transform, `relu(agg) · W2`, as the second pallas_call leaves it in its result array.

  The call walks ten row blocks of 10000 rows of the aggregated features. At block `t` it replaces the negative
  entries of rows `10000 t … 10000 t + 9999` by zero, multiplies them with the whole 64 × 64 weight matrix (both
  rounded to bf16 on the way in: the identity on the extended reals) into a zero accumulator and writes the product
  back as block `t` of the result. Entry (p, c) of that block is `∑ k, max (agg (10000 t + p, k)) 0 · W2 (k, c)`:
  block `t` of the whole-array function `reluRowsDot agg W2`. The ten blocks tile the result's 100000 rows.
-/
import proofs.«132223_j86234353369871_1_alg».proof.Proof.Gen.KernelIdeal.Frame
import proofs.«132223_j86234353369871_1_alg».proof.Proof.LibPlainDot
import proofs.«132223_j86234353369871_1_alg».proof.Proof.LinkSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Link

open Cert.KernelIdeal Cert.KernelIdeal.Gen Cert.Link

variable (V : (c : Dev nD) → (b : Ref sig .tc) → Buf (Elt Ideal) ((c : Thread nD τ).loc b))

/-! ## The body's product at an entry -/

theorem dot1_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot1_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, q) of the body's product: the rectified row of the block against the column of the weights. -/
theorem pay1_apply (x0 : Vec Ideal S10000x64 .f32) (x1 : Vec Ideal S64x64 .f32) (p : Fin 10000) (q : Fin 64) :
    k1_pay1 x0 x1 (ix2 p q) = ∑ k : Fin 64, max (x0 (ix2 p k)) 0 * x1 (ix2 k q) := by
  unfold k1_pay1
  refine (Cert.PlainDot.matmul_zero_apply dot_S10000x64_S64x64_S10000x64_1_0_0_1_n_n rfl rfl dot1_l0
    (fun i q => dot_S10000x64_S64x64_S10000x64_1_0_0_1_n_n.lhsIdx_val_of_single rfl i q)
    (fun i q => dot_S10000x64_S64x64_S10000x64_1_0_0_1_n_n.rhsIdx_val_of_single rfl i q) dot1_r1 none
    (truncf .bf16 (maximumf (shapeCast S10000x64 x0 shapeCasts_S10000x64_S10000x64) (broadcast S10000x64 (Scalar.ofBits .f32 0x00000000#32))) bitsLt_bf16_f32)
    (truncf .bf16 x1 bitsLt_bf16_f32) p q).trans ?_
  refine Finset.sum_congr rfl fun k _ => ?_
  rw [truncf_apply, truncf_apply, maximumf_apply, shapeCast_self, broadcast_apply]
  exact congrArg (fun z => max (x0 (ix2 p k)) z * x1 (ix2 k q)) Ideal.ofBits_zero_f32

/-- One written-back entry, over plain variables: if the feature block holds rows `10000 s + p` of `A` and the
    weight block is `W`, the body's product at `y` is `reluRowsDot A W` at row `10000 s + y₀`, column `y₁`. -/
theorem point1 (A : S100000x64.Idx → EReal) (W : S64x64.Idx → EReal) (x0 : Vec Ideal S10000x64 .f32) (x1 : Vec Ideal S64x64 .f32)
    (s : Nat) (hs : s < 10)
    (h0 : ∀ (p : Fin 10000) (k : Fin 64), x0 (ix2 p k) = A (ix2 (⟨s * 10000 + p.val, by have := p.isLt; omega⟩ : Fin 100000) k))
    (h1 : ∀ (k : Fin 64) (q : Fin 64), x1 (ix2 k q) = W (ix2 k q))
    (y : S10000x64.Idx) (i : S100000x64.Idx) (hi0 : (i 0).val = s * 10000 + (y 0).val) (hi1 : (i 1).val = (y 1).val) :
    k1_pay1 x0 x1 y = reluRowsDot A W i := by
  obtain ⟨p, q, rfl⟩ : ∃ (p : Fin 10000) (q : Fin 64), y = ix2 p q := ⟨y 0, y 1, eq_ix2 y⟩
  rw [pay1_apply]
  unfold reluRowsDot rowsDot relu
  refine Finset.sum_congr rfl fun k _ => ?_
  rw [h0, h1]
  refine congrArg₂ (· * ·) (congrArg (fun j => max (A j) 0) ?_) (congrArg W ?_)
  · exact congrArg (fun a => ix2 a k) (Fin.ext hi0.symm)
  · exact congrArg (fun a => ix2 k a) (Fin.ext hi1.symm)

/-! ## The blocks of the two operands and of the result -/

/-- The printed index maps over the ten points: the feature and result windows move one block of rows per point,
    the weight window stays on the whole matrix. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature window's block at point `t` is rows `10000 t … 10000 t + 9999` of the aggregated features. -/
theorem feat1_apply (c : Dev nD) (t : Fin cfg1.N) (p : Fin 10000) (k : Fin 64) (i : S100000x64.Idx)
    (hi0 : (i 0).val = t.val * 10000 + p.val) (hi1 : (i 1).val = k.val) :
    (iblk1 V c 0 t : Vec Ideal S10000x64 .f32) (ix2 p k) = (V c main_v17 : S100000x64.Idx → EReal) i := by
  obtain ⟨e0, e1, -⟩ := idx1 t
  unfold iblk1
  rw [View.read_apply]
  show V c main_v17 _ = V c main_v17 _
  refine congrArg (V c main_v17) ?_
  funext a
  apply Fin.ext
  match a with
  | ⟨0, _⟩ => show win1_0.index t 0 * 10000 + 1 * p.val = (i 0).val; rw [e0, hi0]; omega
  | ⟨1, _⟩ => show win1_0.index t 1 * 64 + 1 * k.val = (i 1).val; rw [e1, hi1]; omega

/-- The weight window's block at every point is the whole weight matrix. -/
theorem wt1_apply (c : Dev nD) (t : Fin cfg1.N) (k : Fin 64) (q : Fin 64) :
    (iblk1 V c 1 t : Vec Ideal S64x64 .f32) (ix2 k q) = (V c main_arg5 : S64x64.Idx → EReal) (ix2 k q) := by
  obtain ⟨-, -, e2, e3, -⟩ := idx1 t
  unfold iblk1
  rw [View.read_apply]
  show V c main_arg5 _ = V c main_arg5 _
  refine congrArg (V c main_arg5) ?_
  funext a
  apply Fin.ext
  match a with
  | ⟨0, _⟩ => show win1_1.index t 0 * 64 + 1 * k.val = k.val; rw [e2]; omega
  | ⟨1, _⟩ => show win1_1.index t 1 * 64 + 1 * q.val = q.val; rw [e3]; omega

/-- The second dense transform of the arrays the call finds. -/
abbrev xw2 (c : Dev nD) : S100000x64.Idx → EReal :=
  reluRowsDot (n := 100000) (K := 64) (M := 64) (V c main_v17) (V c main_arg5)

/-- What point `t` writes back is block `t` of `reluRowsDot agg W2`. -/
theorem flushed1_eq (c : Dev nD) (t : Fin cfg1.N) :
    (dat1 V c).flushed 2 t = ((cfg1.win 2).blk t).view.read (Elt Ideal) (xw2 V c) := by
  show (cfg1.win 2).cut (grid1.coords t) ((dat1 V c).after 2 t) = _
  rw [after1_2]
  unfold out1_2
  rw [View.canon_unit_zero zero_off]
  simp only [View.ld_unit_zero (S := S10000x64) zero_off, View.ld_unit_zero (S := S64x64) zero_off]
  have hN : cfg1.N = 10 := N_1
  obtain ⟨-, -, -, -, e4, e5⟩ := idx1 t
  funext y
  rw [View.read_apply]
  refine point1 (V c main_v17) (V c main_arg5) _ _ t.val (by have := t.isLt; omega)
    (fun p k => feat1_apply V c t p k _ rfl rfl) (fun k q => wt1_apply V c t k q) y _ ?_ ?_
  · show win1_2.index t 0 * 10000 + 1 * (y 0).val = t.val * 10000 + (y 0).val; rw [e4]; omega
  · show win1_2.index t 1 * 64 + 1 * (y 1).val = (y 1).val; rw [e5]; omega

/-- An index of the result is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v18).slice (win1_2.rect t)).set ↔ _
  rw [View.set_slice_whole, Rect.mem_set_unit]
  exact Iff.rfl

/-- Row `r` of the result lies in the block of point `r / 10000`: the ten blocks tile the array. -/
theorem cover1 (i : S100000x64.Idx) : ∃ t : Fin cfg1.N, (cfg1.win 2).flush t = true ∧ i ∈ ((cfg1.win 2).blk t).view.set := by
  have hN : cfg1.N = 10 := N_1
  have h0 : (i 0).val < 100000 := (i 0).isLt
  have h1 : (i 1).val < 64 := (i 1).isLt
  let t : Fin cfg1.N := ⟨(i 0).val / 10000, by omega⟩
  obtain ⟨-, -, -, -, e4, e5⟩ := idx1 t
  refine ⟨t, flush1_2 t, ?_⟩
  rw [mem_blk1]
  intro a
  match a with
  | ⟨0, _⟩ => show win1_2.index t 0 * 10000 ≤ (i 0).val ∧ (i 0).val < win1_2.index t 0 * 10000 + 10000
              rw [e4]; show (i 0).val / 10000 * 10000 ≤ (i 0).val ∧ (i 0).val < (i 0).val / 10000 * 10000 + 10000; omega
  | ⟨1, _⟩ => show win1_2.index t 1 * 64 ≤ (i 1).val ∧ (i 1).val < win1_2.index t 1 * 64 + 64
              rw [e5]; omega

/-- After the call its result array holds `reluRowsDot agg W2` of the aggregated features and weights it found. -/
theorem array1 (c : Dev nD) : (dat1 V c).arrAt 2 cfg1.N = xw2 V c :=
  (dat1 V c).arrAt_eq_of_cover 2 (xw2 V c) (fun t _ => flushed1_eq V c t) cover1

end Cert.KernelIdeal.Link

end
-- ==== Proof.Region2.lean ====
/-
  The link decoder, `z₀ · wa + z₁ · wb`, as the third pallas_call leaves it in its result array.

  The call walks twenty row blocks of 10000 candidate edges. At block `t` it takes rows `10000 t … 10000 t + 9999`
  of the two endpoint-feature matrices, multiplies each with its own whole 64 × 2 weight matrix (all rounded to bf16
  on the way in: the identity on the extended reals) into a zero accumulator, adds the two products and writes the
  10000 × 2 sum back as block `t` of the result. Entry (p, c) of that block is
  `∑ k, z₀ (10000 t + p, k) · wa (k, c) + ∑ k, z₁ (10000 t + p, k) · wb (k, c)`: block `t` of the whole-array
  function `pairDot z₀ z₁ wa wb`. The twenty blocks tile the result's 200000 rows.
-/
import proofs.«132223_j86234353369871_1_alg».proof.Proof.Gen.KernelIdeal.Frame
import proofs.«132223_j86234353369871_1_alg».proof.Proof.LibPlainDot
import proofs.«132223_j86234353369871_1_alg».proof.Proof.LinkSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Link

open Cert.KernelIdeal Cert.KernelIdeal.Gen Cert.Link

variable (V : (c : Dev nD) → (b : Ref sig .tc) → Buf (Elt Ideal) ((c : Thread nD τ).loc b))

/-! ## The body's two products at an entry -/

theorem dot2_l0 (i : S10000x2.Idx) (q : dot_S10000x64_S64x2_S10000x2_1_0_0_1_n_n.contr.Idx) :
    (dot_S10000x64_S64x2_S10000x2_1_0_0_1_n_n.lhsIdx i q 0).val = (i 0).val := by
  unfold DotDims.lhsIdx
  rw [dif_neg (show ¬(0 : Fin S10000x64.rank) ∈ dot_S10000x64_S64x2_S10000x2_1_0_0_1_n_n.lhsBatch by decide), dif_pos (show (0 : Fin S10000x64.rank) ∈ dot_S10000x64_S64x2_S10000x2_1_0_0_1_n_n.lhsNonContracting by decide)]
  rfl
theorem dot2_r1 (i : S10000x2.Idx) (q : dot_S10000x64_S64x2_S10000x2_1_0_0_1_n_n.contr.Idx) :
    (dot_S10000x64_S64x2_S10000x2_1_0_0_1_n_n.rhsIdx i q 1).val = (i 1).val := by
  unfold DotDims.rhsIdx
  rw [dif_neg (show ¬(1 : Fin S64x2.rank) ∈ dot_S10000x64_S64x2_S10000x2_1_0_0_1_n_n.rhsBatch by decide), dif_pos (show (1 : Fin S64x2.rank) ∈ dot_S10000x64_S64x2_S10000x2_1_0_0_1_n_n.rhsNonContracting by decide)]
  rfl

/-- One of the body's two products at entry (p, q): a row of an endpoint block against a column of its weights. -/
theorem half2_apply (z : Vec Ideal S10000x64 .f32) (w : Vec Ideal S64x2 .f32) (p : Fin 10000) (q : Fin 2) :
    (matmul (F := Ideal) dot_S10000x64_S64x2_S10000x2_1_0_0_1_n_n none
        (truncf .bf16 (shapeCast S10000x64 z shapeCasts_S10000x64_S10000x64) bitsLt_bf16_f32)
        (truncf .bf16 (shapeCast S64x2 w shapeCasts_S64x2_S64x2) bitsLt_bf16_f32)
        (constant (F := Ideal) S10000x2 .f32 0x00000000#32) : FVec Ideal S10000x2 .f32) (ix2 p q)
      = ∑ k : Fin 64, z (ix2 p k) * w (ix2 k q) := by
  refine (Cert.PlainDot.matmul_zero_apply dot_S10000x64_S64x2_S10000x2_1_0_0_1_n_n rfl rfl dot2_l0
    (fun i q => dot_S10000x64_S64x2_S10000x2_1_0_0_1_n_n.lhsIdx_val_of_single rfl i q)
    (fun i q => dot_S10000x64_S64x2_S10000x2_1_0_0_1_n_n.rhsIdx_val_of_single rfl i q) dot2_r1 none
    (truncf .bf16 (shapeCast S10000x64 z shapeCasts_S10000x64_S10000x64) bitsLt_bf16_f32)
    (truncf .bf16 (shapeCast S64x2 w shapeCasts_S64x2_S64x2) bitsLt_bf16_f32) p q).trans ?_
  refine Finset.sum_congr rfl fun k _ => ?_
  rw [truncf_apply, truncf_apply, shapeCast_self, shapeCast_self]

/-- Entry (p, q) of what the body stores: the two products added. -/
theorem pay2_apply (x0 x1 : Vec Ideal S10000x64 .f32) (x2 x3 : Vec Ideal S64x2 .f32) (p : Fin 10000) (q : Fin 2) :
    k2_pay1 x0 x1 x2 x3 (ix2 p q)
      = (∑ k : Fin 64, x0 (ix2 p k) * x2 (ix2 k q)) + ∑ k : Fin 64, x1 (ix2 p k) * x3 (ix2 k q) := by
  unfold k2_pay1
  refine (addf_apply _ _ (ix2 p q)).trans ?_
  exact congrArg₂ (· + ·) (half2_apply x0 x2 p q) (half2_apply x1 x3 p q)

/-- One written-back entry, over plain variables: if the two endpoint blocks hold rows `10000 s + p` of `Z0`, `Z1`
    and the weight blocks are `Wa`, `Wb`, the stored value at `y` is `pairDot Z0 Z1 Wa Wb` at row `10000 s + y₀`,
    column `y₁`. -/
theorem point2 (Z0 Z1 : S200000x64.Idx → EReal) (Wa Wb : S64x2.Idx → EReal) (x0 x1 : Vec Ideal S10000x64 .f32) (x2 x3 : Vec Ideal S64x2 .f32)
    (s : Nat) (hs : s < 20)
    (h0 : ∀ (p : Fin 10000) (k : Fin 64), x0 (ix2 p k) = Z0 (ix2 (⟨s * 10000 + p.val, by have := p.isLt; omega⟩ : Fin 200000) k))
    (h1 : ∀ (p : Fin 10000) (k : Fin 64), x1 (ix2 p k) = Z1 (ix2 (⟨s * 10000 + p.val, by have := p.isLt; omega⟩ : Fin 200000) k))
    (h2 : ∀ (k : Fin 64) (q : Fin 2), x2 (ix2 k q) = Wa (ix2 k q))
    (h3 : ∀ (k : Fin 64) (q : Fin 2), x3 (ix2 k q) = Wb (ix2 k q))
    (y : S10000x2.Idx) (i : S200000x2.Idx) (hi0 : (i 0).val = s * 10000 + (y 0).val) (hi1 : (i 1).val = (y 1).val) :
    k2_pay1 x0 x1 x2 x3 y = pairDot Z0 Z1 Wa Wb i := by
  obtain ⟨p, q, rfl⟩ : ∃ (p : Fin 10000) (q : Fin 2), y = ix2 p q := ⟨y 0, y 1, eq_ix2 y⟩
  rw [pay2_apply]
  unfold pairDot rowsDot
  refine congrArg₂ (· + ·) (Finset.sum_congr rfl fun k _ => ?_) (Finset.sum_congr rfl fun k _ => ?_)
  · rw [h0, h2]
    refine congrArg₂ (· * ·) (congrArg Z0 ?_) (congrArg Wa ?_)
    · exact congrArg (fun a => ix2 a k) (Fin.ext hi0.symm)
    · exact congrArg (fun a => ix2 k a) (Fin.ext hi1.symm)
  · rw [h1, h3]
    refine congrArg₂ (· * ·) (congrArg Z1 ?_) (congrArg Wb ?_)
    · exact congrArg (fun a => ix2 a k) (Fin.ext hi0.symm)
    · exact congrArg (fun a => ix2 k a) (Fin.ext hi1.symm)

/-! ## The blocks of the four operands and of the result -/

/-- The printed index maps over the twenty points: the endpoint and result windows move one block of rows per point,
    the two weight windows stay on their whole matrices. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The first endpoint window's block at point `t` is rows `10000 t … 10000 t + 9999` of the first endpoint matrix. -/
theorem end0_apply (c : Dev nD) (t : Fin cfg2.N) (p : Fin 10000) (k : Fin 64) (i : S200000x64.Idx)
    (hi0 : (i 0).val = t.val * 10000 + p.val) (hi1 : (i 1).val = k.val) :
    (iblk2 V c 0 t : Vec Ideal S10000x64 .f32) (ix2 p k) = (V c main_v40 : S200000x64.Idx → EReal) i := by
  obtain ⟨e0, e1, -⟩ := idx2 t
  unfold iblk2
  rw [View.read_apply]
  show V c main_v40 _ = V c main_v40 _
  refine congrArg (V c main_v40) ?_
  funext a
  apply Fin.ext
  match a with
  | ⟨0, _⟩ => show win2_0.index t 0 * 10000 + 1 * p.val = (i 0).val; rw [e0, hi0]; omega
  | ⟨1, _⟩ => show win2_0.index t 1 * 64 + 1 * k.val = (i 1).val; rw [e1, hi1]; omega

/-- The second endpoint window's block at point `t` is the same rows of the second endpoint matrix. -/
theorem end1_apply (c : Dev nD) (t : Fin cfg2.N) (p : Fin 10000) (k : Fin 64) (i : S200000x64.Idx)
    (hi0 : (i 0).val = t.val * 10000 + p.val) (hi1 : (i 1).val = k.val) :
    (iblk2 V c 1 t : Vec Ideal S10000x64 .f32) (ix2 p k) = (V c main_v49 : S200000x64.Idx → EReal) i := by
  obtain ⟨-, -, e0, e1, -⟩ := idx2 t
  unfold iblk2
  rw [View.read_apply]
  show V c main_v49 _ = V c main_v49 _
  refine congrArg (V c main_v49) ?_
  funext a
  apply Fin.ext
  match a with
  | ⟨0, _⟩ => show win2_1.index t 0 * 10000 + 1 * p.val = (i 0).val; rw [e0, hi0]; omega
  | ⟨1, _⟩ => show win2_1.index t 1 * 64 + 1 * k.val = (i 1).val; rw [e1, hi1]; omega

/-- The first weight window's block at every point is its whole matrix. -/
theorem wa_apply (c : Dev nD) (t : Fin cfg2.N) (k : Fin 64) (q : Fin 2) :
    (iblk2 V c 2 t : Vec Ideal S64x2 .f32) (ix2 k q) = (V c main_v51 : S64x2.Idx → EReal) (ix2 k q) := by
  obtain ⟨-, -, -, -, e2, e3, -⟩ := idx2 t
  unfold iblk2
  rw [View.read_apply]
  show V c main_v51 _ = V c main_v51 _
  refine congrArg (V c main_v51) ?_
  funext a
  apply Fin.ext
  match a with
  | ⟨0, _⟩ => show win2_2.index t 0 * 64 + 1 * k.val = k.val; rw [e2]; omega
  | ⟨1, _⟩ => show win2_2.index t 1 * 2 + 1 * q.val = q.val; rw [e3]; omega

/-- The second weight window's block at every point is its whole matrix. -/
theorem wb_apply (c : Dev nD) (t : Fin cfg2.N) (k : Fin 64) (q : Fin 2) :
    (iblk2 V c 3 t : Vec Ideal S64x2 .f32) (ix2 k q) = (V c main_v53 : S64x2.Idx → EReal) (ix2 k q) := by
  obtain ⟨-, -, -, -, -, -, e2, e3, -⟩ := idx2 t
  unfold iblk2
  rw [View.read_apply]
  show V c main_v53 _ = V c main_v53 _
  refine congrArg (V c main_v53) ?_
  funext a
  apply Fin.ext
  match a with
  | ⟨0, _⟩ => show win2_3.index t 0 * 64 + 1 * k.val = k.val; rw [e2]; omega
  | ⟨1, _⟩ => show win2_3.index t 1 * 2 + 1 * q.val = q.val; rw [e3]; omega

/-- The decoder's scores of the arrays the call finds. -/
abbrev scores (c : Dev nD) : S200000x2.Idx → EReal :=
  pairDot (n := 200000) (K := 64) (M := 2) (V c main_v40) (V c main_v49) (V c main_v51) (V c main_v53)

/-- What point `t` writes back is block `t` of `pairDot z₀ z₁ wa wb`. -/
theorem flushed2_eq (c : Dev nD) (t : Fin cfg2.N) :
    (dat2 V c).flushed 4 t = ((cfg2.win 4).blk t).view.read (Elt Ideal) (scores V c) := by
  show (cfg2.win 4).cut (grid2.coords t) ((dat2 V c).after 4 t) = _
  rw [after2_4]
  unfold out2_4
  rw [View.canon_unit_zero zero_off]
  simp only [View.ld_unit_zero (S := S10000x64) zero_off, View.ld_unit_zero (S := S64x2) zero_off]
  have hN : cfg2.N = 20 := N_2
  obtain ⟨-, -, -, -, -, -, -, -, e4, e5⟩ := idx2 t
  funext y
  rw [View.read_apply]
  refine point2 (V c main_v40) (V c main_v49) (V c main_v51) (V c main_v53) _ _ _ _ t.val (by have := t.isLt; omega)
    (fun p k => end0_apply V c t p k _ rfl rfl) (fun p k => end1_apply V c t p k _ rfl rfl)
    (fun k q => wa_apply V c t k q) (fun k q => wb_apply V c t k q) y _ ?_ ?_
  · show win2_4.index t 0 * 10000 + 1 * (y 0).val = t.val * 10000 + (y 0).val; rw [e4]; omega
  · show win2_4.index t 1 * 2 + 1 * (y 1).val = (y 1).val; rw [e5]; omega

/-- An index of the result is in point `t`'s block iff each coordinate is in the block's range on its axis. -/
theorem mem_blk2 (t : Fin cfg2.N) (i : S200000x2.Idx) :
    i ∈ ((cfg2.win 4).blk t).view.set ↔ ∀ a : Fin 2, win2_4.index t a * S10000x2.size a ≤ (i a).val ∧ (i a).val < win2_4.index t a * S10000x2.size a + S10000x2.size a := by
  show i ∈ ((View.whole main_v54).slice (win2_4.rect t)).set ↔ _
  rw [View.set_slice_whole, Rect.mem_set_unit]
  exact Iff.rfl

/-- Row `r` of the result lies in the block of point `r / 10000`: the twenty blocks tile the array. -/
theorem cover2 (i : S200000x2.Idx) : ∃ t : Fin cfg2.N, (cfg2.win 4).flush t = true ∧ i ∈ ((cfg2.win 4).blk t).view.set := by
  have hN : cfg2.N = 20 := N_2
  have h0 : (i 0).val < 200000 := (i 0).isLt
  have h1 : (i 1).val < 2 := (i 1).isLt
  let t : Fin cfg2.N := ⟨(i 0).val / 10000, by omega⟩
  obtain ⟨-, -, -, -, -, -, -, -, e4, e5⟩ := idx2 t
  refine ⟨t, flush2_4 t, ?_⟩
  rw [mem_blk2]
  intro a
  match a with
  | ⟨0, _⟩ => show win2_4.index t 0 * 10000 ≤ (i 0).val ∧ (i 0).val < win2_4.index t 0 * 10000 + 10000
              rw [e4]; show (i 0).val / 10000 * 10000 ≤ (i 0).val ∧ (i 0).val < (i 0).val / 10000 * 10000 + 10000; omega
  | ⟨1, _⟩ => show win2_4.index t 1 * 2 ≤ (i 1).val ∧ (i 1).val < win2_4.index t 1 * 2 + 2
              rw [e5]; omega

/-- After the call its result array holds `pairDot z₀ z₁ wa wb` of the four arrays it found. -/
theorem array2 (c : Dev nD) : (dat2 V c).arrAt 4 cfg2.N = scores V c :=
  (dat2 V c).arrAt_eq_of_cover 4 (scores V c) (fun t _ => flushed2_eq V c t) cover2

end Cert.KernelIdeal.Link

end
-- ==== Proof.HostGlue.lean ====
/-
  The host-side pieces of the network, each named as one function of whole arrays.

  Between the dense transforms both programs run the same operations outside any kernel: an edge's source index,
  wrapped into range when negative, picks a row of the transformed features; the row is scaled by the edge's weight
  and added into the row of the edge's destination (`aggregate`); a candidate edge's endpoint index, wrapped the same
  way, picks a row of the final features (`endpoint`); and the decoder's 2 × 128 weight matrix is read as two 64 × 2
  halves, the first 64 and the last 64 of its columns, transposed (`decLeft`, `decRight`). The proof never looks
  inside a gather or a scatter-add: both programs apply these same functions, and only what goes into them is compared.
-/
import proofs.«132223_j86234353369871_1_alg».proof.Proof.Gen.KernelIdeal
import Idealize.ShloMosaic.PureOps.Ideal
import proofs.«132223_j86234353369871_1_alg».proof.Proof.LinkSpec

noncomputable section

namespace Cert.KernelIdeal.Link

open Cert.KernelIdeal Cert.KernelIdeal.Facts₀ Idealize.ShloMosaic Cert.Link

/-- Row 0 of the edge list: every edge's source node. -/
def srcOf (ei : IVec S2x1000000 32) : IVec S1000000 32 :=
  shapeCast _ (extractStridedSlice S1x1000000 ![0, 0] ei slices_S2x1000000_S1x1000000_0_0) shapeCasts_S1x1000000_S1000000

/-- Row 1 of the edge list: every edge's destination node. -/
def dstOf (ei : IVec S2x1000000 32) : IVec S1000000 32 :=
  shapeCast _ (extractStridedSlice S1x1000000 ![1, 0] ei slices_S2x1000000_S1x1000000_1_0) shapeCasts_S1x1000000_S1000000

/-- A node index counted from the end when negative: `i < 0 ? i + 100000 : i`, for every message edge. -/
def wrapEdges (v : IVec S1000000 32) : IVec S1000000 32 :=
  select (cmpi .slt v (broadcastInDim S1000000 ![] bcast_S_S1000000 (constantI S_ 32 0#32)))
    (addi v (broadcastInDim S1000000 ![] bcast_S_S1000000 (constantI S_ 32 100000#32))) v

/-- One round of message passing over transformed features `y`: each edge takes the row of its source, scales it by
    the edge's weight, and the rows are added up per destination, starting from zero. -/
def aggregate (y : FVec Ideal S100000x64 .f32) (src dst : IVec S1000000 32) (ew : FVec Ideal S1000000 .f32) :
    FVec Ideal S100000x64 .f32 :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 dst)
    (mulf (Host.gather gather_S100000x64_S1000000x1_S1000000x64_1_0_n_n_0_1_164 y
        (broadcastInDim S1000000x1 ![0] bcast_S1000000_S1000000x1_0 (wrapEdges src)))
      (broadcastInDim S1000000x64 ![0, 1] bcast_S1000000x1_S1000000x64_0_1
        (broadcastInDim S1000000x1 ![0] bcast_S1000000_S1000000x1_0 ew)))

/-- Row 0 of the candidate edges: every candidate's first endpoint. -/
def firstOf (pe : IVec S2x200000 32) : IVec S200000 32 :=
  shapeCast _ (extractStridedSlice S1x200000 ![0, 0] pe slices_S2x200000_S1x200000_0_0) shapeCasts_S1x200000_S200000

/-- Row 1 of the candidate edges: every candidate's second endpoint. -/
def secondOf (pe : IVec S2x200000 32) : IVec S200000 32 :=
  shapeCast _ (extractStridedSlice S1x200000 ![1, 0] pe slices_S2x200000_S1x200000_1_0) shapeCasts_S1x200000_S200000

/-- The same wrap of a negative node index, for every candidate edge. -/
def wrapCandidates (v : IVec S200000 32) : IVec S200000 32 :=
  select (cmpi .slt v (broadcastInDim S200000 ![] bcast_S_S200000 (constantI S_ 32 0#32)))
    (addi v (broadcastInDim S200000 ![] bcast_S_S200000 (constantI S_ 32 100000#32))) v

/-- The final features of one endpoint of every candidate edge. -/
def endpoint (z : FVec Ideal S100000x64 .f32) (v : IVec S200000 32) : FVec Ideal S200000x64 .f32 :=
  Host.gather gather_S100000x64_S200000x1_S200000x64_1_0_n_n_0_1_164 z
    (broadcastInDim S200000x1 ![0] bcast_S200000_S200000x1_0 (wrapCandidates v))

/-- The decoder's weights against the first endpoint: columns 0 … 63 of the 2 × 128 matrix, transposed to 64 × 2. -/
def decLeft (wd : FVec Ideal S2x128 .f32) : FVec Ideal S64x2 .f32 :=
  transpose S64x2 [1, 0] (extractStridedSlice S2x64 ![0, 0] wd slices_S2x128_S2x64_0_0) transposes_S2x64_S64x2_1_0

/-- The decoder's weights against the second endpoint: columns 64 … 127, transposed to 64 × 2. -/
def decRight (wd : FVec Ideal S2x128 .f32) : FVec Ideal S64x2 .f32 :=
  transpose S64x2 [1, 0] (extractStridedSlice S2x64 ![0, 64] wd slices_S2x128_S2x64_0_64) transposes_S2x64_S64x2_1_0

/-- The node features after both graph-convolution layers: transform, aggregate, rectify, transform, aggregate. -/
def features (x : FVec Ideal S100000x128 .f32) (ei : IVec S2x1000000 32) (ew : FVec Ideal S1000000 .f32)
    (w1 : FVec Ideal S128x64 .f32) (w2 : FVec Ideal S64x64 .f32) : FVec Ideal S100000x64 .f32 :=
  aggregate (reluRowsDot (n := 100000) (K := 64) (M := 64)
      (aggregate (rowsDot (n := 100000) (K := 128) (M := 64) x w1) (srcOf ei) (dstOf ei) ew) w2)
    (srcOf ei) (dstOf ei) ew

/-- The network's output: every candidate edge scored from the final features of its two endpoints. -/
def linkScores (x : FVec Ideal S100000x128 .f32) (ei : IVec S2x1000000 32) (ew : FVec Ideal S1000000 .f32) (pe : IVec S2x200000 32)
    (w1 : FVec Ideal S128x64 .f32) (w2 : FVec Ideal S64x64 .f32) (wd : FVec Ideal S2x128 .f32) : FVec Ideal S200000x2 .f32 :=
  pairDot (n := 200000) (K := 64) (M := 2) (endpoint (features x ei ew w1 w2) (firstOf pe))
    (endpoint (features x ei ew w1 w2) (secondOf pe)) (decLeft wd) (decRight wd)

end Cert.KernelIdeal.Link

end
-- ==== Proof.Stretch1.lean ====
/-
  The first stretch of host operations of the kernel's program, from any buffer contents: between the first and the
  second pallas_call the host cuts the edge list into its source and destination rows, wraps negative source indices,
  gathers the transformed features along the edges, scales them by the edge weights and adds them up per destination.
  Read at the buffers the later steps look at, that is `aggregate` of the first call's result, the two index rows,
  and four arguments no operation of the stretch writes.
-/
import proofs.«132223_j86234353369871_1_alg».proof.Proof.HostGlue
import proofs.«132223_j86234353369871_1_alg».proof.Proof.Gen.KernelIdeal.Launch
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Link

open Cert.KernelIdeal Cert.KernelIdeal.Gen Cert.Link

variable (U : Valuation τ sig (Elt Ideal))

set_option maxHeartbeats 8000000 in
/-- The stretch leaves the aggregate of the first call's result in `%17`. -/
theorem stretch1_agg :
    StableHlo.after (hostOps1 (F := Ideal)) U (Proc.devRef .tc main_v17)
      = aggregate (U (Proc.devRef .tc main_v0)) (srcOf (U (Proc.devRef .tc main_arg1))) (dstOf (U (Proc.devRef .tc main_arg1)))
          (U (Proc.devRef .tc main_arg2)) := by
  after_results_simp <;> rfl
set_option maxHeartbeats 8000000 in
/-- It leaves the edges' sources in `%2` -/
theorem stretch1_src : StableHlo.after (hostOps1 (F := Ideal)) U (Proc.devRef .tc main_v2) = srcOf (U (Proc.devRef .tc main_arg1)) := by
  after_results_simp <;> rfl
set_option maxHeartbeats 8000000 in
/-- and their destinations in `%4`, -/
theorem stretch1_dst : StableHlo.after (hostOps1 (F := Ideal)) U (Proc.devRef .tc main_v4) = dstOf (U (Proc.devRef .tc main_arg1)) := by
  after_results_simp <;> rfl
set_option maxHeartbeats 8000000 in
/-- and writes none of the arguments the later steps read. -/
theorem stretch1_arg2 : StableHlo.after (hostOps1 (F := Ideal)) U (Proc.devRef .tc main_arg2) = U (Proc.devRef .tc main_arg2) := by
  after_results_simp <;> rfl
set_option maxHeartbeats 8000000 in
theorem stretch1_arg3 : StableHlo.after (hostOps1 (F := Ideal)) U (Proc.devRef .tc main_arg3) = U (Proc.devRef .tc main_arg3) := by
  after_results_simp <;> rfl
set_option maxHeartbeats 8000000 in
theorem stretch1_arg5 : StableHlo.after (hostOps1 (F := Ideal)) U (Proc.devRef .tc main_arg5) = U (Proc.devRef .tc main_arg5) := by
  after_results_simp <;> rfl
set_option maxHeartbeats 8000000 in
theorem stretch1_arg6 : StableHlo.after (hostOps1 (F := Ideal)) U (Proc.devRef .tc main_arg6) = U (Proc.devRef .tc main_arg6) := by
  after_results_simp <;> rfl

end Cert.KernelIdeal.Link

end
-- ==== Proof.Stretch2.lean ====
/-
  The second stretch of host operations of the kernel's program, from any buffer contents: between the second and
  the third pallas_call the host aggregates the second call's result over the message edges (with the index rows the
  first stretch left), gathers the rows of the two endpoints of every candidate edge, and cuts the decoder's weights
  into their two transposed halves. Read at the four buffers the third call's windows stage.
-/
import proofs.«132223_j86234353369871_1_alg».proof.Proof.HostGlue
import proofs.«132223_j86234353369871_1_alg».proof.Proof.Gen.KernelIdeal.Launch
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Link

open Cert.KernelIdeal Cert.KernelIdeal.Gen Cert.Link

variable (U : Valuation τ sig (Elt Ideal))

set_option maxHeartbeats 8000000 in
/-- The stretch leaves, in `%40`, the first endpoints' rows of the aggregate of the second call's result, -/
theorem stretch2_first :
    StableHlo.after (hostOps2 (F := Ideal)) U (Proc.devRef .tc main_v40)
      = endpoint (aggregate (U (Proc.devRef .tc main_v18)) (U (Proc.devRef .tc main_v2)) (U (Proc.devRef .tc main_v4)) (U (Proc.devRef .tc main_arg2)))
          (firstOf (U (Proc.devRef .tc main_arg3))) := by
  after_results_simp <;> rfl
set_option maxHeartbeats 8000000 in
/-- in `%49` the second endpoints' rows of the same aggregate, -/
theorem stretch2_second :
    StableHlo.after (hostOps2 (F := Ideal)) U (Proc.devRef .tc main_v49)
      = endpoint (aggregate (U (Proc.devRef .tc main_v18)) (U (Proc.devRef .tc main_v2)) (U (Proc.devRef .tc main_v4)) (U (Proc.devRef .tc main_arg2)))
          (secondOf (U (Proc.devRef .tc main_arg3))) := by
  after_results_simp <;> rfl
set_option maxHeartbeats 8000000 in
/-- and in `%51`, `%53` the two halves of the decoder's weights. -/
theorem stretch2_left : StableHlo.after (hostOps2 (F := Ideal)) U (Proc.devRef .tc main_v51) = decLeft (U (Proc.devRef .tc main_arg6)) := by
  after_results_simp <;> rfl
set_option maxHeartbeats 8000000 in
theorem stretch2_right : StableHlo.after (hostOps2 (F := Ideal)) U (Proc.devRef .tc main_v53) = decRight (U (Proc.devRef .tc main_arg6)) := by
  after_results_simp <;> rfl

end Cert.KernelIdeal.Link

end
-- ==== Proof.KernelValue.lean ====
/-
  What the idealized kernel's result array holds, as one function of the seven argument arrays.

  The run's buffer contents are followed boundary by boundary. The first pallas_call leaves `x · W1` in its result;
  the first stretch of host operations aggregates it over the message edges; the second call leaves the rectified
  aggregate times `W2`; the second stretch aggregates again, gathers the two endpoints of every candidate edge and
  cuts the decoder's weights into their two halves; the third call scores every candidate from its two endpoints.
  Every other buffer a step reads is one no earlier step has written since it was computed, so it is read back
  unchanged. Composed, the result array is `linkScores` of the arguments.
-/
import proofs.«132223_j86234353369871_1_alg».proof.Proof.Region0
import proofs.«132223_j86234353369871_1_alg».proof.Proof.Region1
import proofs.«132223_j86234353369871_1_alg».proof.Proof.Region2
import proofs.«132223_j86234353369871_1_alg».proof.Proof.HostGlue
import proofs.«132223_j86234353369871_1_alg».proof.Proof.Stretch1
import proofs.«132223_j86234353369871_1_alg».proof.Proof.Stretch2
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Link

open Cert.KernelIdeal Cert.KernelIdeal.Gen Cert.Link

/-! ## The fold of buffer contents, read where the next step looks -/

variable (m : (ℓ : Loc nD τ sig) → Buf (Elt Ideal) ℓ) (ρ : Dev nD → PrngReg) (c : Dev nD)

/-- After the first call: its result is `x · W1`. -/
theorem W1_v0 : W1 m ρ c (Proc.devRef .tc main_v0)
    = rowsDot (n := 100000) (K := 128) (M := 64) (m ((c.tc : Thread nD τ).loc main_arg0)) (m ((c.tc : Thread nD τ).loc main_arg4)) :=
  (W1_arr m ρ c 2).trans (array0 (V0 m ρ) c)
theorem W1_arg (b : Ref sig .tc) (hb : ∀ w, Pipeline.arrRef spec0 w ≠ b) :
    W1 m ρ c (Proc.devRef .tc b) = m ((c.tc : Thread nD τ).loc b) := W1_of_ne m ρ c b hb

/-- After the first stretch. -/
theorem W2_v17 : W2 m ρ c (Proc.devRef .tc main_v17)
    = aggregate (rowsDot (n := 100000) (K := 128) (M := 64) (m ((c.tc : Thread nD τ).loc main_arg0)) (m ((c.tc : Thread nD τ).loc main_arg4)))
        (srcOf (m ((c.tc : Thread nD τ).loc main_arg1))) (dstOf (m ((c.tc : Thread nD τ).loc main_arg1))) (m ((c.tc : Thread nD τ).loc main_arg2)) := by
  show StableHlo.after hostOps1 (W1 m ρ c) (Proc.devRef .tc main_v17) = _
  rw [stretch1_agg, W1_v0, W1_arg m ρ c main_arg1 (by decide), W1_arg m ρ c main_arg2 (by decide)]
theorem W2_v2 : W2 m ρ c (Proc.devRef .tc main_v2) = srcOf (m ((c.tc : Thread nD τ).loc main_arg1)) := by
  show StableHlo.after hostOps1 (W1 m ρ c) (Proc.devRef .tc main_v2) = _
  rw [stretch1_src, W1_arg m ρ c main_arg1 (by decide)]
theorem W2_v4 : W2 m ρ c (Proc.devRef .tc main_v4) = dstOf (m ((c.tc : Thread nD τ).loc main_arg1)) := by
  show StableHlo.after hostOps1 (W1 m ρ c) (Proc.devRef .tc main_v4) = _
  rw [stretch1_dst, W1_arg m ρ c main_arg1 (by decide)]
theorem W2_arg2 : W2 m ρ c (Proc.devRef .tc main_arg2) = m ((c.tc : Thread nD τ).loc main_arg2) := by
  show StableHlo.after hostOps1 (W1 m ρ c) (Proc.devRef .tc main_arg2) = _
  rw [stretch1_arg2, W1_arg m ρ c main_arg2 (by decide)]
theorem W2_arg3 : W2 m ρ c (Proc.devRef .tc main_arg3) = m ((c.tc : Thread nD τ).loc main_arg3) := by
  show StableHlo.after hostOps1 (W1 m ρ c) (Proc.devRef .tc main_arg3) = _
  rw [stretch1_arg3, W1_arg m ρ c main_arg3 (by decide)]
theorem W2_arg5 : W2 m ρ c (Proc.devRef .tc main_arg5) = m ((c.tc : Thread nD τ).loc main_arg5) := by
  show StableHlo.after hostOps1 (W1 m ρ c) (Proc.devRef .tc main_arg5) = _
  rw [stretch1_arg5, W1_arg m ρ c main_arg5 (by decide)]
theorem W2_arg6 : W2 m ρ c (Proc.devRef .tc main_arg6) = m ((c.tc : Thread nD τ).loc main_arg6) := by
  show StableHlo.after hostOps1 (W1 m ρ c) (Proc.devRef .tc main_arg6) = _
  rw [stretch1_arg6, W1_arg m ρ c main_arg6 (by decide)]

/-- After the second call: its result is the rectified aggregate times `W2`. -/
theorem W3_v18 : W3 m ρ c (Proc.devRef .tc main_v18)
    = reluRowsDot (n := 100000) (K := 64) (M := 64)
        (aggregate (rowsDot (n := 100000) (K := 128) (M := 64) (m ((c.tc : Thread nD τ).loc main_arg0)) (m ((c.tc : Thread nD τ).loc main_arg4)))
          (srcOf (m ((c.tc : Thread nD τ).loc main_arg1))) (dstOf (m ((c.tc : Thread nD τ).loc main_arg1))) (m ((c.tc : Thread nD τ).loc main_arg2))) (m ((c.tc : Thread nD τ).loc main_arg5)) := by
  refine ((W3_arr m ρ c 2).trans (array1 (V2 m ρ) c)).trans ?_
  show reluRowsDot (n := 100000) (K := 64) (M := 64) (W2 m ρ c (Proc.devRef .tc main_v17)) (W2 m ρ c (Proc.devRef .tc main_arg5)) = _
  rw [W2_v17, W2_arg5]
theorem W3_keep (b : Ref sig .tc) (hb : ∀ w, Pipeline.arrRef spec1 w ≠ b) :
    W3 m ρ c (Proc.devRef .tc b) = W2 m ρ c (Proc.devRef .tc b) := W3_of_ne m ρ c b hb

/-- After the second stretch: the two endpoints' features and the two halves of the decoder's weights. -/
theorem W4_v40 : W4 m ρ c (Proc.devRef .tc main_v40)
    = endpoint (features (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (firstOf (m ((c.tc : Thread nD τ).loc main_arg3))) := by
  show StableHlo.after hostOps2 (W3 m ρ c) (Proc.devRef .tc main_v40) = _
  rw [stretch2_first, W3_v18, W3_keep m ρ c main_v2 (by decide), W3_keep m ρ c main_v4 (by decide),
    W3_keep m ρ c main_arg2 (by decide), W3_keep m ρ c main_arg3 (by decide), W2_v2, W2_v4, W2_arg2, W2_arg3]
  rfl
theorem W4_v49 : W4 m ρ c (Proc.devRef .tc main_v49)
    = endpoint (features (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (secondOf (m ((c.tc : Thread nD τ).loc main_arg3))) := by
  show StableHlo.after hostOps2 (W3 m ρ c) (Proc.devRef .tc main_v49) = _
  rw [stretch2_second, W3_v18, W3_keep m ρ c main_v2 (by decide), W3_keep m ρ c main_v4 (by decide),
    W3_keep m ρ c main_arg2 (by decide), W3_keep m ρ c main_arg3 (by decide), W2_v2, W2_v4, W2_arg2, W2_arg3]
  rfl
theorem W4_v51 : W4 m ρ c (Proc.devRef .tc main_v51) = decLeft (m ((c.tc : Thread nD τ).loc main_arg6)) := by
  show StableHlo.after hostOps2 (W3 m ρ c) (Proc.devRef .tc main_v51) = _
  rw [stretch2_left, W3_keep m ρ c main_arg6 (by decide), W2_arg6]
theorem W4_v53 : W4 m ρ c (Proc.devRef .tc main_v53) = decRight (m ((c.tc : Thread nD τ).loc main_arg6)) := by
  show StableHlo.after hostOps2 (W3 m ρ c) (Proc.devRef .tc main_v53) = _
  rw [stretch2_right, W3_keep m ρ c main_arg6 (by decide), W2_arg6]

/-- After the third call: the result array holds the network's scores of the arguments. -/
theorem kernel_value : W5 m ρ c (Proc.devRef .tc main_v54)
    = linkScores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine ((W5_arr m ρ c 4).trans (array2 (V4 m ρ) c)).trans ?_
  show pairDot (n := 200000) (K := 64) (M := 2) (W4 m ρ c (Proc.devRef .tc main_v40)) (W4 m ρ c (Proc.devRef .tc main_v49))
    (W4 m ρ c (Proc.devRef .tc main_v51)) (W4 m ρ c (Proc.devRef .tc main_v53)) = _
  rw [W4_v40, W4_v49, W4_v51, W4_v53]
  rfl

end Cert.KernelIdeal.Link

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.RefValue.lean ====
/-
  What the reference computes, as the same function of the seven argument arrays.

  The reference applies the host's matrix product where the kernel launches a pallas_call, and otherwise the very same
  host operations. Three facts join the two: the host's product of the features with `W1` is `rowsDot`; its product
  of the rectified aggregate with `W2` is `reluRowsDot`; and its product of the two endpoint matrices laid side by
  side (200000 × 128) with the transposed 2 × 128 decoder weights is the sum of the two 64-wide products the kernel
  forms, because a sum over 128 positions is the sum over the first 64 plus the sum over the last 64, the first 64
  columns of the joined matrix being the first endpoint's and the last 64 the second's.
-/
import proofs.«132223_j86234353369871_1_alg».proof.Proof.Gen.ReferenceIdeal.Read
import proofs.«132223_j86234353369871_1_alg».proof.Proof.HostGlue
import proofs.«132223_j86234353369871_1_alg».proof.Proof.LibPlainDot
import proofs.«132223_j86234353369871_1_alg».proof.Proof.LibConcatCols
import proofs.«132223_j86234353369871_1_alg».proof.Proof.LinkSpec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.Link

open Cert.ReferenceIdeal Cert.ReferenceIdeal.Facts₀ Cert.ReferenceIdeal.Read Cert.Link Cert.KernelIdeal.Link

/-! ## The three dense stages -/

/-- The host's product of the features with the first layer's weights. -/
theorem dense1 (x : FVec Ideal S100000x128 .f32) (w : FVec Ideal S128x64 .f32) :
    Host.dotGeneral dot_S100000x128_S128x64_S100000x64_1_0_0_1_n_n none x w = rowsDot (n := 100000) (K := 128) (M := 64) x w := by
  funext i
  obtain ⟨p, q, rfl⟩ : ∃ (p : Fin 100000) (q : Fin 64), i = ix2 p q := ⟨i 0, i 1, eq_ix2 i⟩
  exact Cert.PlainDot.dotGeneral_apply dot_S100000x128_S128x64_S100000x64_1_0_0_1_n_n rfl rfl lhs_main_v0_0 lhs_main_v0_1 rhs_main_v0_0 rhs_main_v0_1 none _ x w p q

/-- The host's product of the rectified aggregate with the second layer's weights. -/
theorem dense2 (a : FVec Ideal S100000x64 .f32) (w : FVec Ideal S64x64 .f32) :
    Host.dotGeneral dot_S100000x64_S64x64_S100000x64_1_0_0_1_n_n none
        (maximumf a (broadcastInDim S100000x64 ![] bcast_S_S100000x64 (constant (F := Ideal) S_ .f32 0x00000000#32))) w
      = reluRowsDot (n := 100000) (K := 64) (M := 64) a w := by
  funext i
  obtain ⟨p, q, rfl⟩ : ∃ (p : Fin 100000) (q : Fin 64), i = ix2 p q := ⟨i 0, i 1, eq_ix2 i⟩
  refine (Cert.PlainDot.dotGeneral_apply dot_S100000x64_S64x64_S100000x64_1_0_0_1_n_n rfl rfl lhs_main_v19_0 lhs_main_v19_1 rhs_main_v19_0 rhs_main_v19_1 none _ _ w p q).trans
    (Eq.trans ?_ (rowsDot_apply (relu a) w p q).symm)
  refine Finset.sum_congr rfl fun k _ => ?_
  show max (a (ix2 p k)) (Ideal.ofBits .f32 0x00000000#32) * w (ix2 k q) = max (a (ix2 p k)) 0 * w (ix2 k q)
  rw [Ideal.ofBits_zero_f32]

/-- Entry (k, c) of the transposed decoder weights is entry (c, k) of the 2 × 128 matrix. -/
theorem wdT_apply (wd : FVec Ideal S2x128 .f32) (k : Fin 128) (c : Fin 2) :
    transpose S128x2 [1, 0] wd transposes_S2x128_S128x2_1_0 (ix2 k c) = wd (ix2 c k) :=
  transpose_apply [1, 0] wd transposes_S2x128_S128x2_1_0 (ix2 k c) (ix2 c k) (fun b => match b with
    | ⟨0, _⟩ => rfl
    | ⟨1, _⟩ => rfl)

/-- Entry (k, c) of the left half of the decoder's weights is entry (c, k) of the 2 × 128 matrix. -/
theorem decLeft_apply (wd : FVec Ideal S2x128 .f32) (k : Fin 64) (c : Fin 2) :
    decLeft wd (ix2 k c) = wd (ix2 c (⟨k.val, by have := k.isLt; omega⟩ : Fin 128)) := by
  unfold decLeft
  refine (transpose_apply [1, 0] _ _ (ix2 k c) (ix2 c k) (fun b => match b with
    | ⟨0, _⟩ => rfl
    | ⟨1, _⟩ => rfl)).trans ?_
  exact extractStridedSlice_apply ![0, 0] wd _ (ix2 c k) _ (fun a => match a with
    | ⟨0, _⟩ => by show c.val = 0 + c.val; omega
    | ⟨1, _⟩ => by show k.val = 0 + k.val; omega)

/-- Entry (k, c) of the right half is entry (c, 64 + k). -/
theorem decRight_apply (wd : FVec Ideal S2x128 .f32) (k : Fin 64) (c : Fin 2) :
    decRight wd (ix2 k c) = wd (ix2 c (⟨k.val + 64, by have := k.isLt; omega⟩ : Fin 128)) := by
  unfold decRight
  refine (transpose_apply [1, 0] _ _ (ix2 k c) (ix2 c k) (fun b => match b with
    | ⟨0, _⟩ => rfl
    | ⟨1, _⟩ => rfl)).trans ?_
  exact extractStridedSlice_apply ![0, 64] wd _ (ix2 c k) _ (fun a => match a with
    | ⟨0, _⟩ => by show c.val = 0 + c.val; omega
    | ⟨1, _⟩ => by show k.val + 64 = 64 + k.val; omega)

/-- The host's product of the two endpoint matrices laid side by side with the transposed decoder weights is the
    kernel's sum of two products. -/
theorem decode (z0 z1 : FVec Ideal S200000x64 .f32) (wd : FVec Ideal S2x128 .f32) :
    Host.dotGeneral dot_S200000x128_S128x2_S200000x2_1_0_0_1_n_n none
        (concatenate S200000x128 1 [⟨S200000x64, z0⟩, ⟨S200000x64, z1⟩] concatenates_S200000x64_S200000x64_S200000x128_d1)
        (transpose S128x2 [1, 0] wd transposes_S2x128_S128x2_1_0)
      = pairDot (n := 200000) (K := 64) (M := 2) z0 z1 (decLeft wd) (decRight wd) := by
  funext i
  obtain ⟨p, q, rfl⟩ : ∃ (p : Fin 200000) (q : Fin 2), i = ix2 p q := ⟨i 0, i 1, eq_ix2 i⟩
  refine (Cert.PlainDot.dotGeneral_apply dot_S200000x128_S128x2_S200000x2_1_0_0_1_n_n rfl rfl lhs_main_v57_0 lhs_main_v57_1 rhs_main_v57_0 rhs_main_v57_1 none _ _ _ p q).trans ?_
  rw [pairDot_apply]
  refine (sum_cut (K1 := 64) (K2 := 64) _).trans ?_
  refine congrArg₂ (· + ·) (Finset.sum_congr rfl fun k _ => ?_) (Finset.sum_congr rfl fun k _ => ?_)
  · rw [wdT_apply, decLeft_apply]
    exact congrArg (· * _) (concatenate_cols_left z0 z1 concatenates_S200000x64_S200000x64_S200000x128_d1 p _ k rfl)
  · rw [wdT_apply, decRight_apply]
    exact congrArg (· * _) (concatenate_cols_right z0 z1 concatenates_S200000x64_S200000x64_S200000x128_d1 p _ k rfl)

/-! ## The reference's result -/

variable (m : (ℓ : Loc nD τ sig) → Buf (Elt Ideal) ℓ) (c : Dev nD)

/-- The reference's result buffer holds the network's scores of its arguments. -/
theorem ref_value : Cert.ReferenceIdeal.Value.res_main_v57 m c
    = linkScores (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold Cert.ReferenceIdeal.Value.res_main_v57 linkScores features
  rw [← decode, ← dense2, ← dense1]
  rfl

end Cert.ReferenceIdeal.Link

end
-- ==== Proof.lean ====
/-
  A two-layer graph convolution with a link decoder, as three Pallas matrix products among host gathers and
  scatter-adds, against the plain jnp reference: equal results on the extended reals.

  Both programs compute, for 100000 nodes with 128 features, 1000000 weighted message edges and 200000 candidate
  edges: `h = aggregate (x · W1)`, `z = aggregate (relu h · W2)`, and for every candidate edge (u, v) the two scores
  `[z u | z v] · Wdecᵀ`. `aggregate` sends, along every message edge, the source's row scaled by the edge's weight to
  the destination and adds up what arrives. The kernel forms the three matrix products in row blocks inside
  pallas_calls (inputs rounded to bf16, accumulated in f32: on the extended reals the rounding is the identity and a
  blocked product is the product), and never lays the two endpoints' features side by side: it multiplies the first
  endpoint's features with the first 64 columns of `Wdec` and the second's with the last 64, and adds. The reference
  joins the endpoints and multiplies once. The two agree because a sum over 128 positions is the sum over its first 64
  plus the sum over its last 64 — addition on the extended reals is commutative and associative, so no finiteness of
  the inputs is used. The gathers and scatter-adds are the same host operations in both programs, applied to equal
  arrays; they are never opened.

  The idealization rewrites nothing (the kernel only rounds on the way into its products), so `preserves` is trivial.
  The three frames: the two kernels' are the generated frame certificates, the reference's is its generated run with
  the result dropped.
-/
import proofs.«132223_j86234353369871_1_alg».proof.Defs
import proofs.«132223_j86234353369871_1_alg».proof.Proof.Gen.Kernel
import proofs.«132223_j86234353369871_1_alg».proof.Proof.Gen.Kernel.Frame
import proofs.«132223_j86234353369871_1_alg».proof.Proof.Gen.KernelIdeal
import proofs.«132223_j86234353369871_1_alg».proof.Proof.Gen.KernelIdeal.Frame
import proofs.«132223_j86234353369871_1_alg».proof.Proof.Gen.ReferenceIdeal
import proofs.«132223_j86234353369871_1_alg».proof.Proof.Gen.Pre_finite_inputs
import proofs.«132223_j86234353369871_1_alg».proof.Proof.Gen.ReferenceIdeal.Run
import proofs.«132223_j86234353369871_1_alg».proof.Proof.Gen.ReferenceIdeal.Read
import proofs.«132223_j86234353369871_1_alg».proof.Proof.KernelRun
import proofs.«132223_j86234353369871_1_alg».proof.Proof.KernelValue
import proofs.«132223_j86234353369871_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the seven arguments, both programs end with the candidate edges' scores `linkScores` of
    those arguments in their result buffers: the kernel's by following its three calls and two host stretches, the
    reference's by its generated run and the three dense-stage identities. -/
theorem algebraic : Cert.algebraic_KernelIdeal_ReferenceIdeal := by
  intro m ρ m' ρ' _ hagree
  refine ⟨fun c => Cert.KernelIdeal.Link.linkScores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Link.kernel_value m ρ c), (h c).2⟩)
      (Cert.KernelIdeal.Link.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Link.ref_value]
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
